-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x512 .f32) (main_arg1 : IVec S2x400000 32) (main_arg2 : FVec F S512x512 .f32) (main_arg3 : FVec F S512 .f32) (main_arg4 : FVec F S512x256 .f32) (main_arg5 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S1000x512 : Shape := ⟨2, ![1000, 512]⟩
abbrev S450000x512 : Shape := ⟨2, ![450000, 512]⟩
abbrev S1x512 : Shape := ⟨2, ![1, 512]⟩
abbrev S50000x256 : Shape := ⟨2, ![50000, 256]⟩
abbrev S1000x256 : Shape := ⟨2, ![1000, 256]⟩
abbrev S450000x256 : Shape := ⟨2, ![450000, 256]⟩
abbrev S1x256 : Shape := ⟨2, ![1, 256]⟩

abbrev nBuf : Space → Nat
  | .hbm => 110
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S50000, .i32⟩
  | .hbm, ⟨7, _⟩ => ⟨S1x400000, .i32⟩
  | .hbm, ⟨8, _⟩ => ⟨S400000, .i32⟩
  | .hbm, ⟨9, _⟩ => ⟨S450000, .i32⟩
  | .hbm, ⟨10, _⟩ => ⟨S1x400000, .i32⟩
  | .hbm, ⟨11, _⟩ => ⟨S400000, .i32⟩
  | .hbm, ⟨12, _⟩ => ⟨S450000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S450000, .i32⟩
  | .hbm, ⟨17, _⟩ => ⟨S450000, .i1⟩
  | .hbm, ⟨18, _⟩ => ⟨S_, .i32⟩
  | .hbm, ⟨19, _⟩ => ⟨S450000, .i32⟩
  | .hbm, ⟨20, _⟩ => ⟨S450000, .i32⟩
  | .hbm, ⟨21, _⟩ => ⟨S450000, .i32⟩
  | .hbm, ⟨22, _⟩ => ⟨S450000x1, .i32⟩
  | .hbm, ⟨23, _⟩ => ⟨S_, .f32⟩
  | .hbm, ⟨24, _⟩ => ⟨S450000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S_, .i32⟩
  | .hbm, ⟨44, _⟩ => ⟨S450000, .i32⟩
  | .hbm, ⟨45, _⟩ => ⟨S450000, .i1⟩
  | .hbm, ⟨46, _⟩ => ⟨S_, .i32⟩
  | .hbm, ⟨47, _⟩ => ⟨S450000, .i32⟩
  | .hbm, ⟨48, _⟩ => ⟨S450000, .i32⟩
  | .hbm, ⟨49, _⟩ => ⟨S450000, .i32⟩
  | .hbm, ⟨50, _⟩ => ⟨S450000x1, .i32⟩
  | .hbm, ⟨51, _⟩ => ⟨S450000, .f32⟩
  | .hbm, ⟨52, _⟩ => ⟨S450000, .f32⟩
  | .hbm, ⟨53, _⟩ => ⟨S50000x512, .f32⟩
  | .hbm, ⟨54, _⟩ => ⟨S_, .i32⟩
  | .hbm, ⟨55, _⟩ => ⟨S450000, .i32⟩
  | .hbm, ⟨56, _⟩ => ⟨S450000, .i1⟩
  | .hbm, ⟨57, _⟩ => ⟨S_, .i32⟩
  | .hbm, ⟨58, _⟩ => ⟨S450000, .i32⟩
  | .hbm, ⟨59, _⟩ => ⟨S450000, .i32⟩
  | .hbm, ⟨60, _⟩ => ⟨S450000, .i32⟩
  | .hbm, ⟨61, _⟩ => ⟨S450000x1, .i32⟩
  | .hbm, ⟨62, _⟩ => ⟨S450000x512, .f32⟩
  | .hbm, ⟨63, _⟩ => ⟨S450000x1, .f32⟩
  | .hbm, ⟨64, _⟩ => ⟨S450000x512, .f32⟩
  | .hbm, ⟨65, _⟩ => ⟨S450000x512, .f32⟩
  | .hbm, ⟨66, _⟩ => ⟨S_, .f32⟩
  | .hbm, ⟨67, _⟩ => ⟨S50000x512, .f32⟩
  | .hbm, ⟨68, _⟩ => ⟨S_, .i32⟩
  | .hbm, ⟨69, _⟩ => ⟨S450000, .i32⟩
  | .hbm, ⟨70, _⟩ => ⟨S450000, .i1⟩
  | .hbm, ⟨71, _⟩ => ⟨S_, .i32⟩
  | .hbm, ⟨72, _⟩ => ⟨S450000, .i32⟩
  | .hbm, ⟨73, _⟩ => ⟨S450000, .i32⟩
  | .hbm, ⟨74, _⟩ => ⟨S450000, .i32⟩
  | .hbm, ⟨75, _⟩ => ⟨S450000x1, .i32⟩
  | .hbm, ⟨76, _⟩ => ⟨S50000x512, .f32⟩
  | .hbm, ⟨77, _⟩ => ⟨S1x512, .f32⟩
  | .hbm, ⟨78, _⟩ => ⟨S50000x512, .f32⟩
  | .hbm, ⟨79, _⟩ => ⟨S50000x512, .f32⟩
  | .hbm, ⟨80, _⟩ => ⟨S_, .f32⟩
  | .hbm, ⟨81, _⟩ => ⟨S50000x512, .f32⟩
  | .hbm, ⟨82, _⟩ => ⟨S50000x512, .f32⟩
  | .hbm, ⟨83, _⟩ => ⟨S50000x256, .f32⟩
  | .hbm, ⟨84, _⟩ => ⟨S_, .i32⟩
  | .hbm, ⟨85, _⟩ => ⟨S450000, .i32⟩
  | .hbm, ⟨86, _⟩ => ⟨S450000, .i1⟩
  | .hbm, ⟨87, _⟩ => ⟨S_, .i32⟩
  | .hbm, ⟨88, _⟩ => ⟨S450000, .i32⟩
  | .hbm, ⟨89, _⟩ => ⟨S450000, .i32⟩
  | .hbm, ⟨90, _⟩ => ⟨S450000, .i32⟩
  | .hbm, ⟨91, _⟩ => ⟨S450000x1, .i32⟩
  | .hbm, ⟨92, _⟩ => ⟨S450000x256, .f32⟩
  | .hbm, ⟨93, _⟩ => ⟨S450000x1, .f32⟩
  | .hbm, ⟨94, _⟩ => ⟨S450000x256, .f32⟩
  | .hbm, ⟨95, _⟩ => ⟨S450000x256, .f32⟩
  | .hbm, ⟨96, _⟩ => ⟨S_, .f32⟩
  | .hbm, ⟨97, _⟩ => ⟨S50000x256, .f32⟩
  | .hbm, ⟨98, _⟩ => ⟨S_, .i32⟩
  | .hbm, ⟨99, _⟩ => ⟨S450000, .i32⟩
  | .hbm, ⟨100, _⟩ => ⟨S450000, .i1⟩
  | .hbm, ⟨101, _⟩ => ⟨S_, .i32⟩
  | .hbm, ⟨102, _⟩ => ⟨S450000, .i32⟩
  | .hbm, ⟨103, _⟩ => ⟨S450000, .i32⟩
  | .hbm, ⟨104, _⟩ => ⟨S450000, .i32⟩
  | .hbm, ⟨105, _⟩ => ⟨S450000x1, .i32⟩
  | .hbm, ⟨106, _⟩ => ⟨S50000x256, .f32⟩
  | .hbm, ⟨107, _⟩ => ⟨S1x256, .f32⟩
  | .hbm, ⟨108, _⟩ => ⟨S50000x256, .f32⟩
  | .hbm, ⟨109, _⟩ => ⟨S50000x256, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x256, .f32⟩
  | .local _ .vmem, ⟨8, _⟩ => ⟨S1000x256, .f32⟩
  | .local _ .vmem, ⟨9, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S1000x512_S1000x512 : S1000x512.ShapeCasts S1000x512
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S1000x512_S512x512_S1000x512_1_0_0_1_n_n_wf : DotDims.WF S1000x512 S512x512 S1000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S1000x512_S512x256_S1000x256_1_0_0_1_n_n_wf : DotDims.WF S1000x512 S512x256 S1000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S450000x512 : Shape := ⟨2, ![450000, 512]⟩
abbrev S1x512 : Shape := ⟨2, ![1, 512]⟩
abbrev S50000x256 : Shape := ⟨2, ![50000, 256]⟩
abbrev S450000x256 : Shape := ⟨2, ![450000, 256]⟩
abbrev S1x256 : Shape := ⟨2, ![1, 256]⟩

abbrev nBuf : Space → Nat
  | .hbm => 110
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S50000, .i32⟩
  | .hbm, ⟨7, _⟩ => ⟨S1x400000, .i32⟩
  | .hbm, ⟨8, _⟩ => ⟨S400000, .i32⟩
  | .hbm, ⟨9, _⟩ => ⟨S450000, .i32⟩
  | .hbm, ⟨10, _⟩ => ⟨S1x400000, .i32⟩
  | .hbm, ⟨11, _⟩ => ⟨S400000, .i32⟩
  | .hbm, ⟨12, _⟩ => ⟨S450000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S450000, .i32⟩
  | .hbm, ⟨17, _⟩ => ⟨S450000, .i1⟩
  | .hbm, ⟨18, _⟩ => ⟨S_, .i32⟩
  | .hbm, ⟨19, _⟩ => ⟨S450000, .i32⟩
  | .hbm, ⟨20, _⟩ => ⟨S450000, .i32⟩
  | .hbm, ⟨21, _⟩ => ⟨S450000, .i32⟩
  | .hbm, ⟨22, _⟩ => ⟨S450000x1, .i32⟩
  | .hbm, ⟨23, _⟩ => ⟨S_, .f32⟩
  | .hbm, ⟨24, _⟩ => ⟨S450000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S_, .i32⟩
  | .hbm, ⟨44, _⟩ => ⟨S450000, .i32⟩
  | .hbm, ⟨45, _⟩ => ⟨S450000, .i1⟩
  | .hbm, ⟨46, _⟩ => ⟨S_, .i32⟩
  | .hbm, ⟨47, _⟩ => ⟨S450000, .i32⟩
  | .hbm, ⟨48, _⟩ => ⟨S450000, .i32⟩
  | .hbm, ⟨49, _⟩ => ⟨S450000, .i32⟩
  | .hbm, ⟨50, _⟩ => ⟨S450000x1, .i32⟩
  | .hbm, ⟨51, _⟩ => ⟨S450000, .f32⟩
  | .hbm, ⟨52, _⟩ => ⟨S450000, .f32⟩
  | .hbm, ⟨53, _⟩ => ⟨S50000x512, .f32⟩
  | .hbm, ⟨54, _⟩ => ⟨S_, .i32⟩
  | .hbm, ⟨55, _⟩ => ⟨S450000, .i32⟩
  | .hbm, ⟨56, _⟩ => ⟨S450000, .i1⟩
  | .hbm, ⟨57, _⟩ => ⟨S_, .i32⟩
  | .hbm, ⟨58, _⟩ => ⟨S450000, .i32⟩
  | .hbm, ⟨59, _⟩ => ⟨S450000, .i32⟩
  | .hbm, ⟨60, _⟩ => ⟨S450000, .i32⟩
  | .hbm, ⟨61, _⟩ => ⟨S450000x1, .i32⟩
  | .hbm, ⟨62, _⟩ => ⟨S450000x512, .f32⟩
  | .hbm, ⟨63, _⟩ => ⟨S450000x1, .f32⟩
  | .hbm, ⟨64, _⟩ => ⟨S450000x512, .f32⟩
  | .hbm, ⟨65, _⟩ => ⟨S450000x512, .f32⟩
  | .hbm, ⟨66, _⟩ => ⟨S_, .f32⟩
  | .hbm, ⟨67, _⟩ => ⟨S50000x512, .f32⟩
  | .hbm, ⟨68, _⟩ => ⟨S_, .i32⟩
  | .hbm, ⟨69, _⟩ => ⟨S450000, .i32⟩
  | .hbm, ⟨70, _⟩ => ⟨S450000, .i1⟩
  | .hbm, ⟨71, _⟩ => ⟨S_, .i32⟩
  | .hbm, ⟨72, _⟩ => ⟨S450000, .i32⟩
  | .hbm, ⟨73, _⟩ => ⟨S450000, .i32⟩
  | .hbm, ⟨74, _⟩ => ⟨S450000, .i32⟩
  | .hbm, ⟨75, _⟩ => ⟨S450000x1, .i32⟩
  | .hbm, ⟨76, _⟩ => ⟨S50000x512, .f32⟩
  | .hbm, ⟨77, _⟩ => ⟨S1x512, .f32⟩
  | .hbm, ⟨78, _⟩ => ⟨S50000x512, .f32⟩
  | .hbm, ⟨79, _⟩ => ⟨S50000x512, .f32⟩
  | .hbm, ⟨80, _⟩ => ⟨S_, .f32⟩
  | .hbm, ⟨81, _⟩ => ⟨S50000x512, .f32⟩
  | .hbm, ⟨82, _⟩ => ⟨S50000x512, .f32⟩
  | .hbm, ⟨83, _⟩ => ⟨S50000x256, .f32⟩
  | .hbm, ⟨84, _⟩ => ⟨S_, .i32⟩
  | .hbm, ⟨85, _⟩ => ⟨S450000, .i32⟩
  | .hbm, ⟨86, _⟩ => ⟨S450000, .i1⟩
  | .hbm, ⟨87, _⟩ => ⟨S_, .i32⟩
  | .hbm, ⟨88, _⟩ => ⟨S450000, .i32⟩
  | .hbm, ⟨89, _⟩ => ⟨S450000, .i32⟩
  | .hbm, ⟨90, _⟩ => ⟨S450000, .i32⟩
  | .hbm, ⟨91, _⟩ => ⟨S450000x1, .i32⟩
  | .hbm, ⟨92, _⟩ => ⟨S450000x256, .f32⟩
  | .hbm, ⟨93, _⟩ => ⟨S450000x1, .f32⟩
  | .hbm, ⟨94, _⟩ => ⟨S450000x256, .f32⟩
  | .hbm, ⟨95, _⟩ => ⟨S450000x256, .f32⟩
  | .hbm, ⟨96, _⟩ => ⟨S_, .f32⟩
  | .hbm, ⟨97, _⟩ => ⟨S50000x256, .f32⟩
  | .hbm, ⟨98, _⟩ => ⟨S_, .i32⟩
  | .hbm, ⟨99, _⟩ => ⟨S450000, .i32⟩
  | .hbm, ⟨100, _⟩ => ⟨S450000, .i1⟩
  | .hbm, ⟨101, _⟩ => ⟨S_, .i32⟩
  | .hbm, ⟨102, _⟩ => ⟨S450000, .i32⟩
  | .hbm, ⟨103, _⟩ => ⟨S450000, .i32⟩
  | .hbm, ⟨104, _⟩ => ⟨S450000, .i32⟩
  | .hbm, ⟨105, _⟩ => ⟨S450000x1, .i32⟩
  | .hbm, ⟨106, _⟩ => ⟨S50000x256, .f32⟩
  | .hbm, ⟨107, _⟩ => ⟨S1x256, .f32⟩
  | .hbm, ⟨108, _⟩ => ⟨S50000x256, .f32⟩
  | .hbm, ⟨109, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_c_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x512_S512x512_S50000x512_1_0_0_1_n_n_wf : DotDims.WF S50000x512 S512x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x256_S50000x256_1_0_0_1_n_n_wf : DotDims.WF S50000x512 S512x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf

class Facts : Prop extends Facts₀ where

variable [Facts]
-- ==== Proof.KernelRun.lean ====
/-
  The idealized kernel's run with its result named.

  The program is eight segments: three stretches of host operations, the first matrix-product region, two
  stretches, the second region, and a last stretch. The buffer contents at each boundary are a fold from the launch
  memory (`W0 … W8`), and every fair execution ends with each unscoped buffer at `W8`. Read at the result buffer
  this gives the result as `W8` there; read at the arguments, the launch contents.
-/
import proofs.«109055_j61186104099484_1_alg».proof.Proof.Gen.KernelIdeal.Frame

set_option maxRecDepth 16384

noncomputable section

namespace Cert.Gcn.KernelSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the program terminates, nothing faulting, with the result buffer at the last
    boundary's contents and the argument arrays as launched: the launch over the eight segments, the last thread
    state read against the final state. -/
theorem run_named : θ_run defs (onTc (τ := τ) (main (F := F))) ⟨m, fun _ => 0, ρ⟩ (fun r => ∀ c : Dev nD,
      r.2.mem ((c.tc : Thread nD τ).loc main_v79) = W8 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v79 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelSide

end
-- ==== Proof.Stages.lean ====
/-
  The host side of the two programs, stage by stage, as pure functions.

  Both programs build the same graph quantities from the edge list and apply the same aggregation to the result
  of each matrix product: the edge endpoints with one self loop per node appended; the degree of every node (a
  scatter-add of ones over the destinations); its inverse square root where positive and zero elsewhere; the weight
  `dinv[src] · dinv[dst]` of every edge; and, per layer, the weighted rows gathered at the sources and summed at
  the destinations, plus a bias (followed in the first layer by the maximum with zero). Each stage is written here
  once, with the operations in the order both programs apply them, so that the two runs can be stated over the
  same terms and no stage ever has to be opened.
-/
import proofs.«109055_j61186104099484_1_alg».proof.Proof.Gen.KernelIdeal

noncomputable section

namespace Cert.Gcn

open Idealize.ShloMosaic Cert.KernelIdeal Cert.KernelIdeal.Facts₀

variable {F : FTy → Type} [FloatOps F]

/-- The sources of the edges: row 0 of the edge list, then the nodes `0 … n-1` (the self loops). -/
def sources (e : (⟨S2x400000, .i32⟩ : BufTy).Contents (Elt F)) : (⟨S450000, .i32⟩ : BufTy).Contents (Elt F) :=
  concatenate S450000 0 [⟨S400000, shapeCast _ (extractStridedSlice S1x400000 ![0, 0] e slices_S2x400000_S1x400000_0_0) shapeCasts_S1x400000_S400000⟩, ⟨S50000, iotaInDim S50000 32 0⟩] concatenates_S400000_S50000_S450000_d0

/-- The destinations of the edges: row 1 of the edge list, then the nodes `0 … n-1`. -/
def targets (e : (⟨S2x400000, .i32⟩ : BufTy).Contents (Elt F)) : (⟨S450000, .i32⟩ : BufTy).Contents (Elt F) :=
  concatenate S450000 0 [⟨S400000, shapeCast _ (extractStridedSlice S1x400000 ![1, 0] e slices_S2x400000_S1x400000_1_0) shapeCasts_S1x400000_S400000⟩, ⟨S50000, iotaInDim S50000 32 0⟩] concatenates_S400000_S50000_S450000_d0

/-- A vector of node indices made ready for a gather or a scatter: a negative index counts from the end
    (`v + n`), and the vector is laid out as a column. -/
def idxCol (v : (⟨S450000, .i32⟩ : BufTy).Contents (Elt F)) : (⟨S450000x1, .i32⟩ : BufTy).Contents (Elt F) :=
  broadcastInDim S450000x1 ![0] bcast_S450000_S450000x1_0
    (select (cmpi .slt v (broadcastInDim S450000 ![] bcast_S_S450000 (constantI S_ 32 0#32)))
      (addi v (broadcastInDim S450000 ![] bcast_S_S450000 (constantI S_ 32 50000#32))) v)

/-- The degree of every node: ones summed at the destinations. -/
def degree (dst : (⟨S450000, .i32⟩ : BufTy).Contents (Elt F)) : (⟨S50000, .f32⟩ : BufTy).Contents (Elt F) :=
  Host.scatterAdd scatter_S50000_S450000x1_S450000_n_0_0_1
    (broadcastInDim S50000 ![] bcast_S_S50000 (constant S_ .f32 0x00000000#32)) (idxCol dst)
    (broadcastInDim S450000 ![] bcast_S_S450000 (constant S_ .f32 0x3F800000#32))

/-- `deg^(-1/2)` where the degree is positive, zero elsewhere. -/
def invSqrt (deg : (⟨S50000, .f32⟩ : BufTy).Contents (Elt F)) : (⟨S50000, .f32⟩ : BufTy).Contents (Elt F) :=
  select (cmpf .ogt deg (broadcastInDim S50000 ![] bcast_S_S50000 (constant S_ .f32 0x00000000#32))) (Host.rsqrt deg)
    (broadcastInDim S50000 ![] bcast_S_S50000 (id (constant S_ .f32 0x00000000#32)))

/-- The weight of every edge from a per-node factor `d`: `d[src] · d[dst]`. -/
def edgeWeightOf (d : (⟨S50000, .f32⟩ : BufTy).Contents (Elt F)) (src dst : (⟨S450000, .i32⟩ : BufTy).Contents (Elt F)) :
    (⟨S450000, .f32⟩ : BufTy).Contents (Elt F) :=
  mulf (Host.gather gather_S50000_S450000x1_S450000_n_0_n_n_0_1_1 d (idxCol src))
    (Host.gather gather_S50000_S450000x1_S450000_n_0_n_n_0_1_1 d (idxCol dst))

/-- The symmetric normalisation of the graph with self loops: `deg[src]^(-1/2) · deg[dst]^(-1/2)` per edge. -/
def edgeWeight (src dst : (⟨S450000, .i32⟩ : BufTy).Contents (Elt F)) : (⟨S450000, .f32⟩ : BufTy).Contents (Elt F) :=
  edgeWeightOf (invSqrt (degree dst)) src dst

/-- The first layer after its matrix product `h`: the rows of `h` at the sources, weighted, summed at the
    destinations; plus the bias; then the maximum with zero. -/
def hidden (h : (⟨S50000x512, .f32⟩ : BufTy).Contents (Elt F)) (src dst : (⟨S450000, .i32⟩ : BufTy).Contents (Elt F))
    (w : (⟨S450000, .f32⟩ : BufTy).Contents (Elt F)) (b : (⟨S512, .f32⟩ : BufTy).Contents (Elt F)) :
    (⟨S50000x512, .f32⟩ : BufTy).Contents (Elt F) :=
  maximumf
    (addf
      (Host.scatterAdd scatter_S50000x512_S450000x1_S450000x512_1_0_0_1
        (broadcastInDim S50000x512 ![] bcast_S_S50000x512 (constant S_ .f32 0x00000000#32)) (idxCol dst)
        (mulf (Host.gather gather_S50000x512_S450000x1_S450000x512_1_0_n_n_0_1_1512 h (idxCol src))
          (broadcastInDim S450000x512 ![0, 1] bcast_S450000x1_S450000x512_0_1 (broadcastInDim S450000x1 ![0] bcast_S450000_S450000x1_0 w))))
      (broadcastInDim S50000x512 ![0, 1] bcast_S1x512_S50000x512_0_1 (broadcastInDim S1x512 ![1] bcast_S512_S1x512_1 b)))
    (broadcastInDim S50000x512 ![] bcast_S_S50000x512 (constant S_ .f32 0x00000000#32))

/-- The second layer after its matrix product `h`: the rows of `h` at the sources, weighted, summed at the
    destinations; plus the bias. -/
def output (h : (⟨S50000x256, .f32⟩ : BufTy).Contents (Elt F)) (src dst : (⟨S450000, .i32⟩ : BufTy).Contents (Elt F))
    (w : (⟨S450000, .f32⟩ : BufTy).Contents (Elt F)) (b : (⟨S256, .f32⟩ : BufTy).Contents (Elt F)) :
    (⟨S50000x256, .f32⟩ : BufTy).Contents (Elt F) :=
  addf
    (Host.scatterAdd scatter_S50000x256_S450000x1_S450000x256_1_0_0_1
      (broadcastInDim S50000x256 ![] bcast_S_S50000x256 (constant S_ .f32 0x00000000#32)) (idxCol dst)
      (mulf (Host.gather gather_S50000x256_S450000x1_S450000x256_1_0_n_n_0_1_1256 h (idxCol src))
        (broadcastInDim S450000x256 ![0, 1] bcast_S450000x1_S450000x256_0_1 (broadcastInDim S450000x1 ![0] bcast_S450000_S450000x1_0 w))))
    (broadcastInDim S50000x256 ![0, 1] bcast_S1x256_S50000x256_0_1 (broadcastInDim S1x256 ![1] bcast_S256_S1x256_1 b))

end Cert.Gcn

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.RegionProduct.lean ====
/-
  The two matrix-product regions of the kernel, read as whole arrays.

  Each region tiles the rows of its left operand into 50 blocks of 1000 rows, keeps the right operand whole, and
  at grid point `t` stores the product of block `t` with the right operand into block `t` of its result. At the
  ideal values the change of float format before the product is the identity and the product accumulated into a
  zero splat is the plain sum of products, so block `t` of the result is rows `1000·t … 1000·t + 999` of
  `X · W`. The 50 blocks cover every row, hence the region leaves the whole array `X · W` in its result
  buffer, whatever the buffers held when the region was entered (`V`).
-/
import proofs.«109055_j61186104099484_1_alg».proof.Proof.Gen.KernelIdeal.Frame
import proofs.«109055_j61186104099484_1_alg».proof.Proof.LibMatProd
import Idealize.ShloMosaic.Lib.Pipeline.Value
import Idealize.ShloMosaic.Lib.ValueIdx
import Idealize.ShloMosaic.PureOps.Ideal.Laws

noncomputable section

open scoped BigOperators

namespace Cert.Gcn.Regions

open Idealize.ShloMosaic Idealize.ShloMosaic.TcCoe Idealize.ShloMosaic.ValueIdx Idealize.SL.Sem
open Cert.KernelIdeal Cert.KernelIdeal.Gen Cert.Linear
open Idealize.ShloMosaic.Pipeline (Dat)

/-- An entry of a product depends only on one row of the left factor and one column of the right one: if row
    `j 0` of `x0` is row `i 0` of `A`, and column `j 1` of `x1` is column `i 1` of `B`, the entries agree. -/
theorem matProd_congr_entry {R R' K N N' : Nat} (A : (Mat R' K).Idx → EReal) (B : (Mat K N').Idx → EReal)
    (x0 : (Mat R K).Idx → EReal) (x1 : (Mat K N).Idx → EReal) (j : (Mat R N).Idx) (i : (Mat R' N').Idx)
    (h0 : ∀ k : Fin K, x0 (ix2 (n0 := R) (n1 := K) (j 0) k) = A (ix2 (n0 := R') (n1 := K) (i 0) k))
    (h1 : ∀ k : Fin K, x1 (ix2 (n0 := K) (n1 := N) k (j 1)) = B (ix2 (n0 := K) (n1 := N') k (i 1))) :
    matProd x0 x1 j = matProd A B i := by
  unfold matProd
  exact Finset.sum_congr rfl fun k _ => by rw [h0 k, h1 k]

theorem hz : (![0, 0] : Fin 2 → Nat) = fun _ => 0 := funext fun a => by fin_cases a <;> rfl

/-! ## Region 0: `x · W1` -/

/-- The first region's product contracts the columns of its left operand with the rows of its right one. -/
theorem contracts0 : Contracts (R := 1000) (K := 512) (N := 512) dot_S1000x512_S512x512_S1000x512_1_0_0_1_n_n where
  rank := rfl
  size := rfl
  lhs0 := fun i q => by unfold DotDims.lhsIdx; rw [dif_neg (by decide), dif_pos (by decide)]; rfl
  lhs1 := fun i q => DotDims.lhsIdx_val_of_single _ rfl i q
  rhs0 := fun i q => DotDims.rhsIdx_val_of_single _ rfl i q
  rhs1 := fun i q => by unfold DotDims.rhsIdx; rw [dif_neg (by decide), dif_pos (by decide)]; rfl

/-- What the body stores: the product of its two loaded blocks. -/
theorem pay0_eq (x0 : Vec Ideal S1000x512 .f32) (x1 : Vec Ideal S512x512 .f32) :
    k0_pay1 (F := Ideal) x0 x1 = matProd (R := 1000) (K := 512) (N := 512) x0 x1 := by
  unfold k0_pay1
  exact matmul_zero_eq contracts0 none _ _

/-- The printed index maps, decided over the grid: the left operand's block and the result's block sit at row
    block `t`, column block 0; the right operand's one block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region0
variable (V : (c : Dev nD) → (b : Ref sig .tc) → Buf (Elt Ideal) ((c : Thread nD τ).loc b))

/-- What point `t` writes back is block `t` of `x · W1`, `x` and `W1` the arrays the region finds. -/
theorem flushed0 (c : Dev nD) (t : Fin cfg0.N) :
    (dat0 V c).flushed 2 t
      = ((cfg0.win 2).blk t).view.read (Elt Ideal) (matProd (R := 50000) (K := 512) (N := 512) (V c main_arg0) (V c main_arg2)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  rw [pay0_eq]
  obtain ⟨e0, e1, e2, e3, e4, e5⟩ := idx_facts0 t
  funext j
  refine matProd_congr_entry (V c main_arg0) (V c main_arg2) _ _ j (((cfg0.win 2).blk t).view.emb j) (fun k => ?_) (fun k => ?_)
  · show V c main_arg0 (((cfg0.win 0).blk t).view.emb (ix2 (n0 := 1000) (n1 := 512) (j 0) k)) = _
    refine congrArg (V c main_arg0) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 512 + 1 * k.val = k.val; omega
  · show V c main_arg2 (((cfg0.win 1).blk t).view.emb (ix2 (n0 := 512) (n1 := 512) k (j 1))) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the result array is in point `t`'s block iff each coordinate is in the block's range. -/
theorem mem_blk0 (t : Fin cfg0.N) (i : S50000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v35).slice (win0_2.rect t)).set ↔ _
  rw [View.set_slice_whole, Rect.mem_set_unit]
  exact Iff.rfl

/-- Row `r` lies in the block of point `r / 1000`: the 50 blocks cover the array. -/
theorem cover0 (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  let t : Fin cfg0.N := ⟨(i 0).val / 1000, lt_of_lt_of_eq (by omega : (i 0).val / 1000 < 50) N_0.symm⟩
  obtain ⟨e0, e1, e2, e3, e4, e5⟩ := idx_facts0 t
  have ht : t.val = (i 0).val / 1000 := rfl
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- The first region leaves `x · W1` in its result array. -/
theorem final0 (c : Dev nD) :
    (dat0 V c).arrAt 2 cfg0.N = matProd (R := 50000) (K := 512) (N := 512) (V c main_arg0) (V c main_arg2) :=
  (dat0 V c).arrAt_eq_of_cover 2 _ (fun t _ => flushed0 V c t) cover0

end Region0

/-! ## Region 1: `h · W2` -/

/-- The second region's product contracts the columns of its left operand with the rows of its right one. -/
theorem contracts1 : Contracts (R := 1000) (K := 512) (N := 256) dot_S1000x512_S512x256_S1000x256_1_0_0_1_n_n where
  rank := rfl
  size := rfl
  lhs0 := fun i q => by unfold DotDims.lhsIdx; rw [dif_neg (by decide), dif_pos (by decide)]; rfl
  lhs1 := fun i q => DotDims.lhsIdx_val_of_single _ rfl i q
  rhs0 := fun i q => DotDims.rhsIdx_val_of_single _ rfl i q
  rhs1 := fun i q => by unfold DotDims.rhsIdx; rw [dif_neg (by decide), dif_pos (by decide)]; rfl

/-- What the body stores: the product of its two loaded blocks (the cast of the left block to its own shape
    changes nothing). -/
theorem pay1_eq (x0 : Vec Ideal S1000x512 .f32) (x1 : Vec Ideal S512x256 .f32) :
    k1_pay1 (F := Ideal) x0 x1 = matProd (R := 1000) (K := 512) (N := 256) x0 x1 := by
  unfold k1_pay1
  rw [shapeCast_self]
  exact matmul_zero_eq contracts1 none _ _

/-- The printed index maps, decided over the grid: the left operand's block and the result's block sit at row
    block `t`, column block 0; the right operand's one block is the whole matrix. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region1
variable (V : (c : Dev nD) → (b : Ref sig .tc) → Buf (Elt Ideal) ((c : Thread nD τ).loc b))

/-- What point `t` writes back is block `t` of `h · W2`, `h` and `W2` the arrays the region finds. -/
theorem flushed1 (c : Dev nD) (t : Fin cfg1.N) :
    (dat1 V c).flushed 2 t
      = ((cfg1.win 2).blk t).view.read (Elt Ideal) (matProd (R := 50000) (K := 512) (N := 256) (V c main_v57) (V c main_arg4)) := by
  show (cfg1.win 2).cut (grid1.coords t) ((dat1 V c).after 2 t) = _
  rw [after1_2]
  unfold out1_2
  rw [View.canon_unit_zero hz]
  simp only [View.ld_unit_zero (S := S1000x512) hz, View.ld_unit_zero (S := S512x256) hz]
  rw [pay1_eq]
  obtain ⟨e0, e1, e2, e3, e4, e5⟩ := idx_facts1 t
  funext j
  refine matProd_congr_entry (V c main_v57) (V c main_arg4) _ _ j (((cfg1.win 2).blk t).view.emb j) (fun k => ?_) (fun k => ?_)
  · show V c main_v57 (((cfg1.win 0).blk t).view.emb (ix2 (n0 := 1000) (n1 := 512) (j 0) k)) = _
    refine congrArg (V c main_v57) (funext fun a => Fin.ext ?_)
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 512 + 1 * k.val = k.val; omega
  · show V c main_arg4 (((cfg1.win 1).blk t).view.emb (ix2 (n0 := 512) (n1 := 256) k (j 1))) = _
    refine congrArg (V c main_arg4) (funext fun a => Fin.ext ?_)
    match a with
    | ⟨0, _⟩ => show win1_1.index t (0 : Fin 2) * 512 + 1 * k.val = k.val; omega
    | ⟨1, _⟩ => show win1_1.index t (1 : Fin 2) * 256 + 1 * (j 1).val = win1_2.index t (1 : Fin 2) * 256 + 1 * (j 1).val; omega

/-- An index of the result array is in point `t`'s block iff each coordinate is in the block's range. -/
theorem mem_blk1 (t : Fin cfg1.N) (i : S50000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v58).slice (win1_2.rect t)).set ↔ _
  rw [View.set_slice_whole, Rect.mem_set_unit]
  exact Iff.rfl

/-- Row `r` lies in the block of point `r / 1000`: the 50 blocks cover the array. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 1000, lt_of_lt_of_eq (by omega : (i 0).val / 1000 < 50) N_1.symm⟩
  obtain ⟨e0, e1, e2, e3, e4, e5⟩ := idx_facts1 t
  have ht : t.val = (i 0).val / 1000 := rfl
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 256 ≤ (i 1).val ∧ (i 1).val < win1_2.index t (1 : Fin 2) * 256 + 256; omega

/-- The second region leaves `h · W2` in its result array. -/
theorem final1 (c : Dev nD) :
    (dat1 V c).arrAt 2 cfg1.N = matProd (R := 50000) (K := 512) (N := 256) (V c main_v57) (V c main_arg4) :=
  (dat1 V c).arrAt_eq_of_cover 2 _ (fun t _ => flushed1 V c t) cover1

end Region1

end Cert.Gcn.Regions

end
-- ==== Proof.KernelValue.lean ====
/-
  What the idealized kernel's result buffer holds at the end of its run, as a function of the arguments.

  Each stretch of host operations is read once, over an arbitrary valuation `V` of the buffers it starts from:
  the first three stretches compute the edge endpoints and the edge weights from the edge list; the two after the
  first region compute the hidden layer from the region's product; the last computes the output from the second
  region's product. Every other buffer a later stretch reads passes through unchanged. Chained along the
  boundaries of the run, with each region's result array the matrix product of its operands, the result is
  `output (hidden (x · W1) …  b1 · W2) … b2` over the edge endpoints and weights of the edge list.
-/
import proofs.«109055_j61186104099484_1_alg».proof.Proof.Gen.KernelIdeal.Frame
import proofs.«109055_j61186104099484_1_alg».proof.Proof.Stages
import proofs.«109055_j61186104099484_1_alg».proof.Proof.RegionProduct
import Idealize.ShloMosaic.Lib.StableHlo.Run

set_option maxRecDepth 16384

noncomputable section

namespace Cert.Gcn.KernelSide

open Idealize.ShloMosaic Idealize.ShloMosaic.TcCoe Idealize.SL.Sem
open Cert.KernelIdeal Cert.KernelIdeal.Gen Cert.Gcn Cert.Linear
open Idealize.ShloMosaic.StableHlo (after)

/-! ## The stretches, over an arbitrary valuation -/

section Stretches
variable {F : FTy → Type} [FloatOps F] (V : Valuation τ sig (Elt F))

/-- The last stretch computes the output layer from the second product. -/
theorem tail_value :
    after hostOps2 V (Proc.devRef .tc main_v79)
      = output (V (Proc.devRef .tc main_v58)) (V (Proc.devRef .tc main_v3)) (V (Proc.devRef .tc main_v6)) (V (Proc.devRef .tc main_v34)) (V (Proc.devRef .tc main_arg5)) := by
  after_results_simp
  rfl

/-- The two stretches between the regions compute the hidden layer from the first product. -/
theorem mid_value :
    after hostOps1_1 (after hostOps1 V) (Proc.devRef .tc main_v57)
      = hidden (V (Proc.devRef .tc main_v35)) (V (Proc.devRef .tc main_v3)) (V (Proc.devRef .tc main_v6)) (V (Proc.devRef .tc main_v34)) (V (Proc.devRef .tc main_arg3)) := by
  after_results_simp
  rfl

theorem mid_keeps_v3 : after hostOps1_1 (after hostOps1 V) (Proc.devRef .tc main_v3) = V (Proc.devRef .tc main_v3) := by after_results_simp
theorem mid_keeps_v6 : after hostOps1_1 (after hostOps1 V) (Proc.devRef .tc main_v6) = V (Proc.devRef .tc main_v6) := by after_results_simp
theorem mid_keeps_v34 : after hostOps1_1 (after hostOps1 V) (Proc.devRef .tc main_v34) = V (Proc.devRef .tc main_v34) := by after_results_simp
theorem mid_keeps_arg4 : after hostOps1_1 (after hostOps1 V) (Proc.devRef .tc main_arg4) = V (Proc.devRef .tc main_arg4) := by after_results_simp
theorem mid_keeps_arg5 : after hostOps1_1 (after hostOps1 V) (Proc.devRef .tc main_arg5) = V (Proc.devRef .tc main_arg5) := by after_results_simp

/-- The first three stretches compute the sources, -/
theorem head_sources :
    after hostOps0_2 (after hostOps0_1 (after hostOps0 V)) (Proc.devRef .tc main_v3) = sources (V (Proc.devRef .tc main_arg1)) := by
  after_results_simp
  rfl

/-- the destinations, -/
theorem head_targets :
    after hostOps0_2 (after hostOps0_1 (after hostOps0 V)) (Proc.devRef .tc main_v6) = targets (V (Proc.devRef .tc main_arg1)) := by
  after_results_simp
  rfl

/-- and the edge weights. -/
theorem head_weight :
    after hostOps0_2 (after hostOps0_1 (after hostOps0 V)) (Proc.devRef .tc main_v34)
      = edgeWeight (sources (V (Proc.devRef .tc main_arg1))) (targets (V (Proc.devRef .tc main_arg1))) := by
  after_results_simp
  rfl

theorem head_keeps_arg0 : after hostOps0_2 (after hostOps0_1 (after hostOps0 V)) (Proc.devRef .tc main_arg0) = V (Proc.devRef .tc main_arg0) := by after_results_simp
theorem head_keeps_arg2 : after hostOps0_2 (after hostOps0_1 (after hostOps0 V)) (Proc.devRef .tc main_arg2) = V (Proc.devRef .tc main_arg2) := by after_results_simp
theorem head_keeps_arg3 : after hostOps0_2 (after hostOps0_1 (after hostOps0 V)) (Proc.devRef .tc main_arg3) = V (Proc.devRef .tc main_arg3) := by after_results_simp
theorem head_keeps_arg4 : after hostOps0_2 (after hostOps0_1 (after hostOps0 V)) (Proc.devRef .tc main_arg4) = V (Proc.devRef .tc main_arg4) := by after_results_simp
theorem head_keeps_arg5 : after hostOps0_2 (after hostOps0_1 (after hostOps0 V)) (Proc.devRef .tc main_arg5) = V (Proc.devRef .tc main_arg5) := by after_results_simp

end Stretches

end Cert.Gcn.KernelSide

end
-- ==== Proof.Spec.lean ====
/-
  The function both programs compute.

  A two-layer graph convolution on the graph with one self loop per node: with `src`, `dst` the edge endpoints
  and `w` the symmetric normalisation `deg[src]^(-1/2) · deg[dst]^(-1/2)`,
  `out = A (max (A (x · W1) + b1, 0) · W2) + b2`, where `A h` sums `w_e · h[src_e]` over the edges `e` into row
  `dst_e`. The matrix products are plain sums of products of extended reals (`matProd`); the stages around them
  are the host operations both programs share.
-/
import proofs.«109055_j61186104099484_1_alg».proof.Proof.Stages
import proofs.«109055_j61186104099484_1_alg».proof.Proof.LibMatProd

noncomputable section

namespace Cert.Gcn

open Idealize.ShloMosaic Cert.KernelIdeal Cert.Linear

/-- The result array as one function of the six argument arrays, at the ideal values. -/
def gcn (x : (⟨S50000x512, .f32⟩ : BufTy).Contents (Elt Ideal)) (e : (⟨S2x400000, .i32⟩ : BufTy).Contents (Elt Ideal))
    (W1 : (⟨S512x512, .f32⟩ : BufTy).Contents (Elt Ideal)) (b1 : (⟨S512, .f32⟩ : BufTy).Contents (Elt Ideal))
    (W2 : (⟨S512x256, .f32⟩ : BufTy).Contents (Elt Ideal)) (b2 : (⟨S256, .f32⟩ : BufTy).Contents (Elt Ideal)) :
    (⟨S50000x256, .f32⟩ : BufTy).Contents (Elt Ideal) :=
  output (F := Ideal)
    (matProd (R := 50000) (K := 512) (N := 256)
      (hidden (F := Ideal) (matProd (R := 50000) (K := 512) (N := 512) x W1) (sources e) (targets e)
        (edgeWeight (sources e) (targets e)) b1) W2)
    (sources e) (targets e) (edgeWeight (sources e) (targets e)) b2

end Cert.Gcn

end
-- ==== Proof.KernelResult.lean ====
/-
  The idealized kernel's result, as the common function of its arguments.

  Walking the run's boundaries backwards from the end: the last stretch computes the output layer from the second
  region's array and from the edge endpoints, edge weights and bias, which nothing since the first stretches has
  written; the second region's array is the product of the hidden layer with `W2`; the hidden layer is computed from
  the first region's array, the product `x · W1`; and the first stretches compute the endpoints and weights from
  the edge list, leaving the arguments as launched.
-/
import proofs.«109055_j61186104099484_1_alg».proof.Proof.KernelRun
import proofs.«109055_j61186104099484_1_alg».proof.Proof.KernelValue
import proofs.«109055_j61186104099484_1_alg».proof.Proof.Spec

set_option maxRecDepth 16384

noncomputable section

namespace Cert.Gcn.KernelSide

open Idealize.ShloMosaic Idealize.ShloMosaic.TcCoe Idealize.SL.Sem
open Cert.KernelIdeal Cert.KernelIdeal.Gen Cert.Gcn Cert.Linear Cert.Gcn.Regions

variable (m : (ℓ : Loc nD τ sig) → Buf (Elt Ideal) ℓ) (ρ : Dev nD → PrngReg)

/-- The last boundary's contents at the result buffer are `gcn` of the launch contents of the arguments. -/
theorem result_eq (c : Dev nD) :
    W8 m ρ c (Proc.devRef .tc main_v79)
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the last stretch
  have h8 : W8 m ρ c (Proc.devRef .tc main_v79)
      = output (W7 m ρ c (Proc.devRef .tc main_v58)) (W7 m ρ c (Proc.devRef .tc main_v3)) (W7 m ρ c (Proc.devRef .tc main_v6))
          (W7 m ρ c (Proc.devRef .tc main_v34)) (W7 m ρ c (Proc.devRef .tc main_arg5)) := tail_value (W7 m ρ c)
  -- the second region
  have h7p : W7 m ρ c (Proc.devRef .tc main_v58)
      = matProd (R := 50000) (K := 512) (N := 256) (W6 m ρ c (Proc.devRef .tc main_v57)) (W6 m ρ c (Proc.devRef .tc main_arg4)) :=
    (W7_arr m ρ c 2).trans (final1 (V6 m ρ) c)
  have h7_3 : W7 m ρ c (Proc.devRef .tc main_v3) = W6 m ρ c (Proc.devRef .tc main_v3) := W7_of_ne m ρ c main_v3 (by decide)
  have h7_6 : W7 m ρ c (Proc.devRef .tc main_v6) = W6 m ρ c (Proc.devRef .tc main_v6) := W7_of_ne m ρ c main_v6 (by decide)
  have h7_34 : W7 m ρ c (Proc.devRef .tc main_v34) = W6 m ρ c (Proc.devRef .tc main_v34) := W7_of_ne m ρ c main_v34 (by decide)
  have h7_a5 : W7 m ρ c (Proc.devRef .tc main_arg5) = W6 m ρ c (Proc.devRef .tc main_arg5) := W7_of_ne m ρ c main_arg5 (by decide)
  -- the stretches between the regions
  have h6h : W6 m ρ c (Proc.devRef .tc main_v57)
      = hidden (W4 m ρ c (Proc.devRef .tc main_v35)) (W4 m ρ c (Proc.devRef .tc main_v3)) (W4 m ρ c (Proc.devRef .tc main_v6))
          (W4 m ρ c (Proc.devRef .tc main_v34)) (W4 m ρ c (Proc.devRef .tc main_arg3)) := mid_value (W4 m ρ c)
  have h6_3 : W6 m ρ c (Proc.devRef .tc main_v3) = W4 m ρ c (Proc.devRef .tc main_v3) := mid_keeps_v3 (W4 m ρ c)
  have h6_6 : W6 m ρ c (Proc.devRef .tc main_v6) = W4 m ρ c (Proc.devRef .tc main_v6) := mid_keeps_v6 (W4 m ρ c)
  have h6_34 : W6 m ρ c (Proc.devRef .tc main_v34) = W4 m ρ c (Proc.devRef .tc main_v34) := mid_keeps_v34 (W4 m ρ c)
  have h6_a4 : W6 m ρ c (Proc.devRef .tc main_arg4) = W4 m ρ c (Proc.devRef .tc main_arg4) := mid_keeps_arg4 (W4 m ρ c)
  have h6_a5 : W6 m ρ c (Proc.devRef .tc main_arg5) = W4 m ρ c (Proc.devRef .tc main_arg5) := mid_keeps_arg5 (W4 m ρ c)
  -- the first region
  have h4p : W4 m ρ c (Proc.devRef .tc main_v35)
      = matProd (R := 50000) (K := 512) (N := 512) (W3 m ρ c (Proc.devRef .tc main_arg0)) (W3 m ρ c (Proc.devRef .tc main_arg2)) :=
    (W4_arr m ρ c 2).trans (final0 (V3 m ρ) c)
  have h4_3 : W4 m ρ c (Proc.devRef .tc main_v3) = W3 m ρ c (Proc.devRef .tc main_v3) := W4_of_ne m ρ c main_v3 (by decide)
  have h4_6 : W4 m ρ c (Proc.devRef .tc main_v6) = W3 m ρ c (Proc.devRef .tc main_v6) := W4_of_ne m ρ c main_v6 (by decide)
  have h4_34 : W4 m ρ c (Proc.devRef .tc main_v34) = W3 m ρ c (Proc.devRef .tc main_v34) := W4_of_ne m ρ c main_v34 (by decide)
  have h4_a3 : W4 m ρ c (Proc.devRef .tc main_arg3) = W3 m ρ c (Proc.devRef .tc main_arg3) := W4_of_ne m ρ c main_arg3 (by decide)
  have h4_a4 : W4 m ρ c (Proc.devRef .tc main_arg4) = W3 m ρ c (Proc.devRef .tc main_arg4) := W4_of_ne m ρ c main_arg4 (by decide)
  have h4_a5 : W4 m ρ c (Proc.devRef .tc main_arg5) = W3 m ρ c (Proc.devRef .tc main_arg5) := W4_of_ne m ρ c main_arg5 (by decide)
  -- the first stretches, from the launch contents
  have h3_3 : W3 m ρ c (Proc.devRef .tc main_v3) = sources (m ((c.tc : Thread nD τ).loc main_arg1)) := head_sources (W0 m ρ c)
  have h3_6 : W3 m ρ c (Proc.devRef .tc main_v6) = targets (m ((c.tc : Thread nD τ).loc main_arg1)) := head_targets (W0 m ρ c)
  have h3_34 : W3 m ρ c (Proc.devRef .tc main_v34)
      = edgeWeight (sources (m ((c.tc : Thread nD τ).loc main_arg1))) (targets (m ((c.tc : Thread nD τ).loc main_arg1))) :=
    head_weight (W0 m ρ c)
  have h3_a0 : W3 m ρ c (Proc.devRef .tc main_arg0) = m ((c.tc : Thread nD τ).loc main_arg0) := head_keeps_arg0 (W0 m ρ c)
  have h3_a2 : W3 m ρ c (Proc.devRef .tc main_arg2) = m ((c.tc : Thread nD τ).loc main_arg2) := head_keeps_arg2 (W0 m ρ c)
  have h3_a3 : W3 m ρ c (Proc.devRef .tc main_arg3) = m ((c.tc : Thread nD τ).loc main_arg3) := head_keeps_arg3 (W0 m ρ c)
  have h3_a4 : W3 m ρ c (Proc.devRef .tc main_arg4) = m ((c.tc : Thread nD τ).loc main_arg4) := head_keeps_arg4 (W0 m ρ c)
  have h3_a5 : W3 m ρ c (Proc.devRef .tc main_arg5) = m ((c.tc : Thread nD τ).loc main_arg5) := head_keeps_arg5 (W0 m ρ c)
  rw [h8, h7p, h7_3, h7_6, h7_34, h7_a5, h6h, h6_3, h6_6, h6_34, h6_a4, h6_a5, h4p, h4_3, h4_6, h4_34, h4_a3, h4_a4, h4_a5,
    h3_3, h3_6, h3_34, h3_a0, h3_a2, h3_a3, h3_a4, h3_a5]
  rfl

/-- Every fair execution of the idealized kernel ends with its result at `gcn` of the arguments, the arguments
    unchanged. -/
theorem run : θ_run defs (onTc (τ := τ) (main (F := Ideal))) ⟨m, fun _ => 0, ρ⟩ (fun r => ∀ c : Dev nD,
      r.2.mem ((c.tc : Thread nD τ).loc main_v79)
        = gcn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.Gcn.KernelSide

end
-- ==== Proof.RefRun.lean ====
/-
  The idealized reference's run, read back in three segments.

  The reference is a straight line of 104 host operations: 47 that compute the edge endpoints and the edge
  weights from the edge list; the first matrix product followed by the 29 operations of the hidden layer; the
  second matrix product followed by the 26 operations of the output layer. Every fair execution ends with each
  buffer at the fold of the operations over the launch contents; the fold over the whole line is the fold over
  the three segments in turn, and each segment is read once, over an arbitrary valuation of the buffers it starts
  from, as the stage function it computes. At the ideal values each matrix product is the plain sum of products.
-/
import proofs.«109055_j61186104099484_1_alg».proof.Proof.Gen.ReferenceIdeal
import proofs.«109055_j61186104099484_1_alg».proof.Proof.Spec
import Idealize.ShloMosaic.Lib.StableHlo.Run
import Idealize.ShloMosaic.Lib.Pipeline.Frame
import Idealize.ShloMosaic.PureOps.Ideal.Laws

set_option maxRecDepth 16384

noncomputable section

namespace Cert.Gcn.RefSide

open Cert.ReferenceIdeal Cert.ReferenceIdeal.Gen Idealize.ShloMosaic Idealize.ShloMosaic.TcCoe Idealize.SL.Sem Idealize.ShloMosaic.StableHlo
open Cert.Gcn Cert.Linear

section Lists
variable {F : FTy → Type} [FloatOps F]

/-- The 47 operations that compute the edge endpoints and the edge weights (a called function's operations
    stand in its call's place). -/
abbrev opsGraph : List (HloOp τ sig (Elt F)) :=
  [ nullary main_v0 (iotaInDim S50000 32 0),
    unary main_arg1 main_v1 ((extractStridedSlice S1x400000 ![0, 0] · slices_S2x400000_S1x400000_0_0) : (⟨S2x400000, .i32⟩ : BufTy).Contents (Elt F) → (⟨S1x400000, .i32⟩ : BufTy).Contents (Elt F)),
    reshape main_v1 main_v2 rfl shapeCasts_S1x400000_S400000,
    binary main_v2 main_v0 main_v3 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    unary main_arg1 main_v4 ((extractStridedSlice S1x400000 ![1, 0] · slices_S2x400000_S1x400000_1_0) : (⟨S2x400000, .i32⟩ : BufTy).Contents (Elt F) → (⟨S1x400000, .i32⟩ : BufTy).Contents (Elt F)),
    reshape main_v4 main_v5 rfl shapeCasts_S1x400000_S400000,
    binary main_v5 main_v0 main_v6 ((fun a b => concatenate S450000 0 [⟨S400000, a⟩, ⟨S50000, b⟩] concatenates_S400000_S50000_S450000_d0) : (⟨S400000, .i32⟩ : BufTy).Contents (Elt F) → (⟨S50000, .i32⟩ : BufTy).Contents (Elt F) → (⟨S450000, .i32⟩ : BufTy).Contents (Elt F)),
    nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S450000 ![] bcast_S_S450000 : (⟨S_, .i32⟩ : BufTy).Contents (Elt F) → (⟨S450000, .i32⟩ : BufTy).Contents (Elt F)),
    binary main_v6 main_v8 main_v9 (cmpi .slt : (⟨S450000, .i32⟩ : BufTy).Contents (Elt F) → (⟨S450000, .i32⟩ : BufTy).Contents (Elt F) → (⟨S450000, .i1⟩ : BufTy).Contents (Elt F)),
    nullary main_c_0 (constantI S_ 32 50000#32),
    unary main_c_0 main_v10 (broadcastInDim S450000 ![] bcast_S_S450000 : (⟨S_, .i32⟩ : BufTy).Contents (Elt F) → (⟨S450000, .i32⟩ : BufTy).Contents (Elt F)),
    binary main_v6 main_v10 main_v11 (addi : (⟨S450000, .i32⟩ : BufTy).Contents (Elt F) → (⟨S450000, .i32⟩ : BufTy).Contents (Elt F) → (⟨S450000, .i32⟩ : BufTy).Contents (Elt F)),
    ternary main_v9 main_v11 main_v6 main_v12 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v12 main_v13 (broadcastInDim S450000x1 ![0] bcast_S450000_S450000x1_0 : (⟨S450000, .i32⟩ : BufTy).Contents (Elt F) → (⟨S450000x1, .i32⟩ : BufTy).Contents (Elt F)),
    nullary main_cst_1 (constant S_ .f32 0x3F800000#32),
    unary main_cst_1 main_v14 (broadcastInDim S450000 ![] bcast_S_S450000 : (⟨S_, .f32⟩ : BufTy).Contents (Elt F) → (⟨S450000, .f32⟩ : BufTy).Contents (Elt F)),
    ternary main_v7 main_v13 main_v14 main_v15 ((fun x i u => Host.scatterAdd scatter_S50000_S450000x1_S450000_n_0_0_1 x i u) : (⟨S50000, .f32⟩ : BufTy).Contents (Elt F) → (⟨S450000x1, .i32⟩ : BufTy).Contents (Elt F) → (⟨S450000, .f32⟩ : BufTy).Contents (Elt F) → (⟨S50000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select,
    nullary main_c_4 (constantI S_ 32 0#32),
    unary main_c_4 main_v20 (broadcastInDim S450000 ![] bcast_S_S450000 : (⟨S_, .i32⟩ : BufTy).Contents (Elt F) → (⟨S450000, .i32⟩ : BufTy).Contents (Elt F)),
    binary main_v3 main_v20 main_v21 (cmpi .slt : (⟨S450000, .i32⟩ : BufTy).Contents (Elt F) → (⟨S450000, .i32⟩ : BufTy).Contents (Elt F) → (⟨S450000, .i1⟩ : BufTy).Contents (Elt F)),
    nullary main_c_5 (constantI S_ 32 50000#32),
    unary main_c_5 main_v22 (broadcastInDim S450000 ![] bcast_S_S450000 : (⟨S_, .i32⟩ : BufTy).Contents (Elt F) → (⟨S450000, .i32⟩ : BufTy).Contents (Elt F)),
    binary main_v3 main_v22 main_v23 (addi : (⟨S450000, .i32⟩ : BufTy).Contents (Elt F) → (⟨S450000, .i32⟩ : BufTy).Contents (Elt F) → (⟨S450000, .i32⟩ : BufTy).Contents (Elt F)),
    ternary main_v21 main_v23 main_v3 main_v24 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v24 main_v25 (broadcastInDim S450000x1 ![0] bcast_S450000_S450000x1_0 : (⟨S450000, .i32⟩ : BufTy).Contents (Elt F) → (⟨S450000x1, .i32⟩ : BufTy).Contents (Elt F)),
    binary main_v19 main_v25 main_v26 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    nullary main_c_6 (constantI S_ 32 0#32),
    unary main_c_6 main_v27 (broadcastInDim S450000 ![] bcast_S_S450000 : (⟨S_, .i32⟩ : BufTy).Contents (Elt F) → (⟨S450000, .i32⟩ : BufTy).Contents (Elt F)),
    binary main_v6 main_v27 main_v28 (cmpi .slt : (⟨S450000, .i32⟩ : BufTy).Contents (Elt F) → (⟨S450000, .i32⟩ : BufTy).Contents (Elt F) → (⟨S450000, .i1⟩ : BufTy).Contents (Elt F)),
    nullary main_c_7 (constantI S_ 32 50000#32),
    unary main_c_7 main_v29 (broadcastInDim S450000 ![] bcast_S_S450000 : (⟨S_, .i32⟩ : BufTy).Contents (Elt F) → (⟨S450000, .i32⟩ : BufTy).Contents (Elt F)),
    binary main_v6 main_v29 main_v30 (addi : (⟨S450000, .i32⟩ : BufTy).Contents (Elt F) → (⟨S450000, .i32⟩ : BufTy).Contents (Elt F) → (⟨S450000, .i32⟩ : BufTy).Contents (Elt F)),
    ternary main_v28 main_v30 main_v6 main_v31 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v31 main_v32 (broadcastInDim S450000x1 ![0] bcast_S450000_S450000x1_0 : (⟨S450000, .i32⟩ : BufTy).Contents (Elt F) → (⟨S450000x1, .i32⟩ : BufTy).Contents (Elt F)),
    binary main_v19 main_v32 main_v33 ((fun x i => Host.gather gather_S50000_S450000x1_S450000_n_0_n_n_0_1_1 x i) : (⟨S50000, .f32⟩ : BufTy).Contents (Elt F) → (⟨S450000x1, .i32⟩ : BufTy).Contents (Elt F) → (⟨S450000, .f32⟩ : BufTy).Contents (Elt F)),
    binary main_v26 main_v33 main_v34 (mulf : (⟨S450000, .f32⟩ : BufTy).Contents (Elt F) → (⟨S450000, .f32⟩ : BufTy).Contents (Elt F) → (⟨S450000, .f32⟩ : BufTy).Contents (Elt F)) ]

/-- The first matrix product and the 29 operations of the hidden layer. -/
abbrev opsLayer1 : List (HloOp τ sig (Elt F)) :=
  [ binary main_arg0 main_arg2 main_v35 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    nullary main_c_8 (constantI S_ 32 0#32),
    unary main_c_8 main_v36 (broadcastInDim S450000 ![] bcast_S_S450000 : (⟨S_, .i32⟩ : BufTy).Contents (Elt F) → (⟨S450000, .i32⟩ : BufTy).Contents (Elt F)),
    binary main_v3 main_v36 main_v37 (cmpi .slt : (⟨S450000, .i32⟩ : BufTy).Contents (Elt F) → (⟨S450000, .i32⟩ : BufTy).Contents (Elt F) → (⟨S450000, .i1⟩ : BufTy).Contents (Elt F)),
    nullary main_c_9 (constantI S_ 32 50000#32),
    unary main_c_9 main_v38 (broadcastInDim S450000 ![] bcast_S_S450000 : (⟨S_, .i32⟩ : BufTy).Contents (Elt F) → (⟨S450000, .i32⟩ : BufTy).Contents (Elt F)),
    binary main_v3 main_v38 main_v39 (addi : (⟨S450000, .i32⟩ : BufTy).Contents (Elt F) → (⟨S450000, .i32⟩ : BufTy).Contents (Elt F) → (⟨S450000, .i32⟩ : BufTy).Contents (Elt F)),
    ternary main_v37 main_v39 main_v3 main_v40 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v40 main_v41 (broadcastInDim S450000x1 ![0] bcast_S450000_S450000x1_0 : (⟨S450000, .i32⟩ : BufTy).Contents (Elt F) → (⟨S450000x1, .i32⟩ : BufTy).Contents (Elt F)),
    binary main_v35 main_v41 main_v42 ((fun x i => Host.gather gather_S50000x512_S450000x1_S450000x512_1_0_n_n_0_1_1512 x i) : (⟨S50000x512, .f32⟩ : BufTy).Contents (Elt F) → (⟨S450000x1, .i32⟩ : BufTy).Contents (Elt F) → (⟨S450000x512, .f32⟩ : BufTy).Contents (Elt F)),
    unary main_v34 main_v43 (broadcastInDim S450000x1 ![0] bcast_S450000_S450000x1_0 : (⟨S450000, .f32⟩ : BufTy).Contents (Elt F) → (⟨S450000x1, .f32⟩ : BufTy).Contents (Elt F)),
    unary main_v43 main_v44 (broadcastInDim S450000x512 ![0, 1] bcast_S450000x1_S450000x512_0_1 : (⟨S450000x1, .f32⟩ : BufTy).Contents (Elt F) → (⟨S450000x512, .f32⟩ : BufTy).Contents (Elt F)),
    binary main_v42 main_v44 main_v45 (mulf : (⟨S450000x512, .f32⟩ : BufTy).Contents (Elt F) → (⟨S450000x512, .f32⟩ : BufTy).Contents (Elt F) → (⟨S450000x512, .f32⟩ : BufTy).Contents (Elt F)),
    nullary main_cst_10 (constant S_ .f32 0x00000000#32),
    unary main_cst_10 main_v46 (broadcastInDim S50000x512 ![] bcast_S_S50000x512 : (⟨S_, .f32⟩ : BufTy).Contents (Elt F) → (⟨S50000x512, .f32⟩ : BufTy).Contents (Elt F)),
    nullary main_c_11 (constantI S_ 32 0#32),
    unary main_c_11 main_v47 (broadcastInDim S450000 ![] bcast_S_S450000 : (⟨S_, .i32⟩ : BufTy).Contents (Elt F) → (⟨S450000, .i32⟩ : BufTy).Contents (Elt F)),
    binary main_v6 main_v47 main_v48 (cmpi .slt : (⟨S450000, .i32⟩ : BufTy).Contents (Elt F) → (⟨S450000, .i32⟩ : BufTy).Contents (Elt F) → (⟨S450000, .i1⟩ : BufTy).Contents (Elt F)),
    nullary main_c_12 (constantI S_ 32 50000#32),
    unary main_c_12 main_v49 (broadcastInDim S450000 ![] bcast_S_S450000 : (⟨S_, .i32⟩ : BufTy).Contents (Elt F) → (⟨S450000, .i32⟩ : BufTy).Contents (Elt F)),
    binary main_v6 main_v49 main_v50 (addi : (⟨S450000, .i32⟩ : BufTy).Contents (Elt F) → (⟨S450000, .i32⟩ : BufTy).Contents (Elt F) → (⟨S450000, .i32⟩ : BufTy).Contents (Elt F)),
    ternary main_v48 main_v50 main_v6 main_v51 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v51 main_v52 (broadcastInDim S450000x1 ![0] bcast_S450000_S450000x1_0 : (⟨S450000, .i32⟩ : BufTy).Contents (Elt F) → (⟨S450000x1, .i32⟩ : BufTy).Contents (Elt F)),
    ternary main_v46 main_v52 main_v45 main_v53 ((fun x i u => Host.scatterAdd scatter_S50000x512_S450000x1_S450000x512_1_0_0_1 x i u) : (⟨S50000x512, .f32⟩ : BufTy).Contents (Elt F) → (⟨S450000x1, .i32⟩ : BufTy).Contents (Elt F) → (⟨S450000x512, .f32⟩ : BufTy).Contents (Elt F) → (⟨S50000x512, .f32⟩ : BufTy).Contents (Elt F)),
    unary main_arg3 main_v54 (broadcastInDim S1x512 ![1] bcast_S512_S1x512_1 : (⟨S512, .f32⟩ : BufTy).Contents (Elt F) → (⟨S1x512, .f32⟩ : BufTy).Contents (Elt F)),
    unary main_v54 main_v55 (broadcastInDim S50000x512 ![0, 1] bcast_S1x512_S50000x512_0_1 : (⟨S1x512, .f32⟩ : BufTy).Contents (Elt F) → (⟨S50000x512, .f32⟩ : BufTy).Contents (Elt F)),
    binary main_v53 main_v55 main_v56 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x512, .f32⟩) main_call1_v0) (broadcastInDim S50000x512 ![] bcast_S_S50000x512),
    TRef.binary (TRef.of (T := ⟨S50000x512, .f32⟩) main_v56) (TRef.of (T := ⟨S50000x512, .f32⟩) main_call1_v0) (TRef.of (T := ⟨S50000x512, .f32⟩) main_v57) maximumf ]

/-- The second matrix product and the 26 operations of the output layer. -/
abbrev opsLayer2 : List (HloOp τ sig (Elt F)) :=
  [ binary main_v57 main_arg4 main_v58 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_13 (constantI S_ 32 0#32),
    unary main_c_13 main_v59 (broadcastInDim S450000 ![] bcast_S_S450000 : (⟨S_, .i32⟩ : BufTy).Contents (Elt F) → (⟨S450000, .i32⟩ : BufTy).Contents (Elt F)),
    binary main_v3 main_v59 main_v60 (cmpi .slt : (⟨S450000, .i32⟩ : BufTy).Contents (Elt F) → (⟨S450000, .i32⟩ : BufTy).Contents (Elt F) → (⟨S450000, .i1⟩ : BufTy).Contents (Elt F)),
    nullary main_c_14 (constantI S_ 32 50000#32),
    unary main_c_14 main_v61 (broadcastInDim S450000 ![] bcast_S_S450000 : (⟨S_, .i32⟩ : BufTy).Contents (Elt F) → (⟨S450000, .i32⟩ : BufTy).Contents (Elt F)),
    binary main_v3 main_v61 main_v62 (addi : (⟨S450000, .i32⟩ : BufTy).Contents (Elt F) → (⟨S450000, .i32⟩ : BufTy).Contents (Elt F) → (⟨S450000, .i32⟩ : BufTy).Contents (Elt F)),
    ternary main_v60 main_v62 main_v3 main_v63 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v63 main_v64 (broadcastInDim S450000x1 ![0] bcast_S450000_S450000x1_0 : (⟨S450000, .i32⟩ : BufTy).Contents (Elt F) → (⟨S450000x1, .i32⟩ : BufTy).Contents (Elt F)),
    binary main_v58 main_v64 main_v65 ((fun x i => Host.gather gather_S50000x256_S450000x1_S450000x256_1_0_n_n_0_1_1256 x i) : (⟨S50000x256, .f32⟩ : BufTy).Contents (Elt F) → (⟨S450000x1, .i32⟩ : BufTy).Contents (Elt F) → (⟨S450000x256, .f32⟩ : BufTy).Contents (Elt F)),
    unary main_v34 main_v66 (broadcastInDim S450000x1 ![0] bcast_S450000_S450000x1_0 : (⟨S450000, .f32⟩ : BufTy).Contents (Elt F) → (⟨S450000x1, .f32⟩ : BufTy).Contents (Elt F)),
    unary main_v66 main_v67 (broadcastInDim S450000x256 ![0, 1] bcast_S450000x1_S450000x256_0_1 : (⟨S450000x1, .f32⟩ : BufTy).Contents (Elt F) → (⟨S450000x256, .f32⟩ : BufTy).Contents (Elt F)),
    binary main_v65 main_v67 main_v68 (mulf : (⟨S450000x256, .f32⟩ : BufTy).Contents (Elt F) → (⟨S450000x256, .f32⟩ : BufTy).Contents (Elt F) → (⟨S450000x256, .f32⟩ : BufTy).Contents (Elt F)),
    nullary main_cst_15 (constant S_ .f32 0x00000000#32),
    unary main_cst_15 main_v69 (broadcastInDim S50000x256 ![] bcast_S_S50000x256 : (⟨S_, .f32⟩ : BufTy).Contents (Elt F) → (⟨S50000x256, .f32⟩ : BufTy).Contents (Elt F)),
    nullary main_c_16 (constantI S_ 32 0#32),
    unary main_c_16 main_v70 (broadcastInDim S450000 ![] bcast_S_S450000 : (⟨S_, .i32⟩ : BufTy).Contents (Elt F) → (⟨S450000, .i32⟩ : BufTy).Contents (Elt F)),
    binary main_v6 main_v70 main_v71 (cmpi .slt : (⟨S450000, .i32⟩ : BufTy).Contents (Elt F) → (⟨S450000, .i32⟩ : BufTy).Contents (Elt F) → (⟨S450000, .i1⟩ : BufTy).Contents (Elt F)),
    nullary main_c_17 (constantI S_ 32 50000#32),
    unary main_c_17 main_v72 (broadcastInDim S450000 ![] bcast_S_S450000 : (⟨S_, .i32⟩ : BufTy).Contents (Elt F) → (⟨S450000, .i32⟩ : BufTy).Contents (Elt F)),
    binary main_v6 main_v72 main_v73 (addi : (⟨S450000, .i32⟩ : BufTy).Contents (Elt F) → (⟨S450000, .i32⟩ : BufTy).Contents (Elt F) → (⟨S450000, .i32⟩ : BufTy).Contents (Elt F)),
    ternary main_v71 main_v73 main_v6 main_v74 (select : (⟨S450000, .i1⟩ : BufTy).Contents (Elt F) → (⟨S450000, .i32⟩ : BufTy).Contents (Elt F) → (⟨S450000, .i32⟩ : BufTy).Contents (Elt F) → (⟨S450000, .i32⟩ : BufTy).Contents (Elt F)),
    unary main_v74 main_v75 (broadcastInDim S450000x1 ![0] bcast_S450000_S450000x1_0 : (⟨S450000, .i32⟩ : BufTy).Contents (Elt F) → (⟨S450000x1, .i32⟩ : BufTy).Contents (Elt F)),
    ternary main_v69 main_v75 main_v68 main_v76 ((fun x i u => Host.scatterAdd scatter_S50000x256_S450000x1_S450000x256_1_0_0_1 x i u) : (⟨S50000x256, .f32⟩ : BufTy).Contents (Elt F) → (⟨S450000x1, .i32⟩ : BufTy).Contents (Elt F) → (⟨S450000x256, .f32⟩ : BufTy).Contents (Elt F) → (⟨S50000x256, .f32⟩ : BufTy).Contents (Elt F)),
    unary main_arg5 main_v77 (broadcastInDim S1x256 ![1] bcast_S256_S1x256_1 : (⟨S256, .f32⟩ : BufTy).Contents (Elt F) → (⟨S1x256, .f32⟩ : BufTy).Contents (Elt F)),
    unary main_v77 main_v78 (broadcastInDim S50000x256 ![0, 1] bcast_S1x256_S50000x256_0_1 : (⟨S1x256, .f32⟩ : BufTy).Contents (Elt F) → (⟨S50000x256, .f32⟩ : BufTy).Contents (Elt F)),
    binary main_v76 main_v78 main_v79 (addf : (⟨S50000x256, .f32⟩ : BufTy).Contents (Elt F) → (⟨S50000x256, .f32⟩ : BufTy).Contents (Elt F) → (⟨S50000x256, .f32⟩ : BufTy).Contents (Elt F)) ]

/-- The whole line. -/
abbrev ops : List (HloOp τ sig (Elt F)) := opsGraph ++ (opsLayer1 ++ opsLayer2)

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsGraph_sub : (opsGraph : List (HloOp τ sig (Elt F))).Forall fun op => op.bufs ⊆ tcRefs τ sig := by
  simp only [List.Forall, nullary_bufs_sub, unary_bufs_sub, binary_bufs_sub, ternary_bufs_sub, reshape_bufs_sub, and_self]
theorem opsLayer1_sub : (opsLayer1 : List (HloOp τ sig (Elt F))).Forall fun op => op.bufs ⊆ tcRefs τ sig := by
  simp only [List.Forall, nullary_bufs_sub, unary_bufs_sub, binary_bufs_sub, ternary_bufs_sub, reshape_bufs_sub, and_self]
theorem opsLayer2_sub : (opsLayer2 : List (HloOp τ sig (Elt F))).Forall fun op => op.bufs ⊆ tcRefs τ sig := by
  simp only [List.Forall, nullary_bufs_sub, unary_bufs_sub, binary_bufs_sub, ternary_bufs_sub, reshape_bufs_sub, and_self]
theorem ops_sub : (ops : List (HloOp τ sig (Elt F))).Forall fun op => op.bufs ⊆ tcRefs τ sig :=
  List.forall_append.mpr ⟨opsGraph_sub, List.forall_append.mpr ⟨opsLayer1_sub, opsLayer2_sub⟩⟩

end Lists

/-! ## The segments, over an arbitrary valuation -/

section Segments
variable {F : FTy → Type} [FloatOps F] (V : Valuation τ sig (Elt F))

/-- The fold over the whole line is the fold over the three segments in turn. -/
theorem after_ops : after ops V = after opsLayer2 (after opsLayer1 (after opsGraph V)) := by
  show after (opsGraph ++ (opsLayer1 ++ opsLayer2)) V = _
  rw [StableHlo.after_append, StableHlo.after_append]

/-- The first segment computes the sources, -/
theorem graph_sources : after opsGraph V (Proc.devRef .tc main_v3) = sources (V (Proc.devRef .tc main_arg1)) := by
  after_results_simp
  rfl

/-- the destinations, -/
theorem graph_targets : after opsGraph V (Proc.devRef .tc main_v6) = targets (V (Proc.devRef .tc main_arg1)) := by
  after_results_simp
  rfl

/-- and the edge weights. -/
theorem graph_weight :
    after opsGraph V (Proc.devRef .tc main_v34) = edgeWeight (sources (V (Proc.devRef .tc main_arg1))) (targets (V (Proc.devRef .tc main_arg1))) := by
  after_results_simp
  rfl

theorem graph_keeps_arg0 : after opsGraph V (Proc.devRef .tc main_arg0) = V (Proc.devRef .tc main_arg0) := by after_results_simp
theorem graph_keeps_arg2 : after opsGraph V (Proc.devRef .tc main_arg2) = V (Proc.devRef .tc main_arg2) := by after_results_simp
theorem graph_keeps_arg3 : after opsGraph V (Proc.devRef .tc main_arg3) = V (Proc.devRef .tc main_arg3) := by after_results_simp
theorem graph_keeps_arg4 : after opsGraph V (Proc.devRef .tc main_arg4) = V (Proc.devRef .tc main_arg4) := by after_results_simp
theorem graph_keeps_arg5 : after opsGraph V (Proc.devRef .tc main_arg5) = V (Proc.devRef .tc main_arg5) := by after_results_simp

/-- The second segment computes the hidden layer from the product of its first two arguments. -/
theorem layer1_value :
    after opsLayer1 V (Proc.devRef .tc main_v57)
      = hidden (Host.dotGeneral dot_S50000x512_S512x512_S50000x512_1_0_0_1_n_n none (V (Proc.devRef .tc main_arg0)) (V (Proc.devRef .tc main_arg2)))
          (V (Proc.devRef .tc main_v3)) (V (Proc.devRef .tc main_v6)) (V (Proc.devRef .tc main_v34)) (V (Proc.devRef .tc main_arg3)) := by
  after_results_simp
  rfl

theorem layer1_keeps_v3 : after opsLayer1 V (Proc.devRef .tc main_v3) = V (Proc.devRef .tc main_v3) := by after_results_simp
theorem layer1_keeps_v6 : after opsLayer1 V (Proc.devRef .tc main_v6) = V (Proc.devRef .tc main_v6) := by after_results_simp
theorem layer1_keeps_v34 : after opsLayer1 V (Proc.devRef .tc main_v34) = V (Proc.devRef .tc main_v34) := by after_results_simp
theorem layer1_keeps_arg4 : after opsLayer1 V (Proc.devRef .tc main_arg4) = V (Proc.devRef .tc main_arg4) := by after_results_simp
theorem layer1_keeps_arg5 : after opsLayer1 V (Proc.devRef .tc main_arg5) = V (Proc.devRef .tc main_arg5) := by after_results_simp

/-- The third segment computes the output layer from the product of the hidden layer with `W2`. -/
theorem layer2_value :
    after opsLayer2 V (Proc.devRef .tc main_v79)
      = output (Host.dotGeneral dot_S50000x512_S512x256_S50000x256_1_0_0_1_n_n none (V (Proc.devRef .tc main_v57)) (V (Proc.devRef .tc main_arg4)))
          (V (Proc.devRef .tc main_v3)) (V (Proc.devRef .tc main_v6)) (V (Proc.devRef .tc main_v34)) (V (Proc.devRef .tc main_arg5)) := by
  after_results_simp
  rfl

/-- No operation of the line writes an argument. -/
theorem keeps_arg0 : after opsLayer2 (after opsLayer1 (after opsGraph V)) (Proc.devRef .tc main_arg0) = V (Proc.devRef .tc main_arg0) := by after_results_simp
theorem keeps_arg1 : after opsLayer2 (after opsLayer1 (after opsGraph V)) (Proc.devRef .tc main_arg1) = V (Proc.devRef .tc main_arg1) := by after_results_simp
theorem keeps_arg2 : after opsLayer2 (after opsLayer1 (after opsGraph V)) (Proc.devRef .tc main_arg2) = V (Proc.devRef .tc main_arg2) := by after_results_simp
theorem keeps_arg3 : after opsLayer2 (after opsLayer1 (after opsGraph V)) (Proc.devRef .tc main_arg3) = V (Proc.devRef .tc main_arg3) := by after_results_simp
theorem keeps_arg4 : after opsLayer2 (after opsLayer1 (after opsGraph V)) (Proc.devRef .tc main_arg4) = V (Proc.devRef .tc main_arg4) := by after_results_simp
theorem keeps_arg5 : after opsLayer2 (after opsLayer1 (after opsGraph V)) (Proc.devRef .tc main_arg5) = V (Proc.devRef .tc main_arg5) := by after_results_simp

end Segments

/-! ## At the ideal values -/

/-- The first `dot_general` contracts the columns of its left operand with the rows of its right one. -/
theorem contracts1 : Contracts (R := 50000) (K := 512) (N := 512) dot_S50000x512_S512x512_S50000x512_1_0_0_1_n_n where
  rank := rfl
  size := rfl
  lhs0 := fun i q => by unfold DotDims.lhsIdx; rw [dif_neg (by decide), dif_pos (by decide)]; rfl
  lhs1 := fun i q => DotDims.lhsIdx_val_of_single _ rfl i q
  rhs0 := fun i q => DotDims.rhsIdx_val_of_single _ rfl i q
  rhs1 := fun i q => by unfold DotDims.rhsIdx; rw [dif_neg (by decide), dif_pos (by decide)]; rfl

/-- So does the second. -/
theorem contracts2 : Contracts (R := 50000) (K := 512) (N := 256) dot_S50000x512_S512x256_S50000x256_1_0_0_1_n_n where
  rank := rfl
  size := rfl
  lhs0 := fun i q => by unfold DotDims.lhsIdx; rw [dif_neg (by decide), dif_pos (by decide)]; rfl
  lhs1 := fun i q => DotDims.lhsIdx_val_of_single _ rfl i q
  rhs0 := fun i q => DotDims.rhsIdx_val_of_single _ rfl i q
  rhs1 := fun i q => by unfold DotDims.rhsIdx; rw [dif_neg (by decide), dif_pos (by decide)]; rfl

variable (m : (ℓ : Loc nD τ sig) → Buf (Elt Ideal) ℓ) (ρ : Dev nD → PrngReg)

/-- The fold of the whole line over the launch contents, at the result buffer, is `gcn` of the arguments. -/
theorem result_eq (c : Dev nD) :
    after ops (launchContents m c) (Proc.devRef .tc main_v79)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 : after ops (launchContents m c) (Proc.devRef .tc main_v79)
      = after opsLayer2 (after opsLayer1 (after opsGraph (launchContents m c))) (Proc.devRef .tc main_v79) :=
    congrFun (after_ops (launchContents m c)) _
  have hd1 : ∀ (X : FVec Ideal S50000x512 .f32) (W : FVec Ideal S512x512 .f32),
      Host.dotGeneral dot_S50000x512_S512x512_S50000x512_1_0_0_1_n_n none X W = matProd (R := 50000) (K := 512) (N := 512) X W :=
    fun X W => dotGeneral_eq contracts1 none .single X W
  have hd2 : ∀ (X : FVec Ideal S50000x512 .f32) (W : FVec Ideal S512x256 .f32),
      Host.dotGeneral dot_S50000x512_S512x256_S50000x256_1_0_0_1_n_n none X W = matProd (R := 50000) (K := 512) (N := 256) X W :=
    fun X W => dotGeneral_eq contracts2 none .single X W
  rw [h0, layer2_value, hd2, layer1_value, hd1, layer1_keeps_v3, layer1_keeps_v6, layer1_keeps_v34, layer1_keeps_arg4, layer1_keeps_arg5,
    graph_sources, graph_targets, graph_weight, graph_keeps_arg0, graph_keeps_arg2, graph_keeps_arg3, graph_keeps_arg4, graph_keeps_arg5]
  rfl

/-- Every fair execution of the idealized reference ends with its result at `gcn` of the arguments, the
    arguments unchanged. -/
theorem run : θ_run defs (onTc (τ := τ) (main (F := Ideal))) ⟨m, fun _ => 0, ρ⟩ (fun r => ∀ c : Dev nD,
      r.2.mem ((c.tc : Thread nD τ).loc main_v79)
        = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v79).trans (result_eq m c),
       (h c main_arg0).trans ((congrFun (after_ops (launchContents m c)) _).trans (keeps_arg0 (launchContents m c))),
       (h c main_arg1).trans ((congrFun (after_ops (launchContents m c)) _).trans (keeps_arg1 (launchContents m c))),
       (h c main_arg2).trans ((congrFun (after_ops (launchContents m c)) _).trans (keeps_arg2 (launchContents m c))),
       (h c main_arg3).trans ((congrFun (after_ops (launchContents m c)) _).trans (keeps_arg3 (launchContents m c))),
       (h c main_arg4).trans ((congrFun (after_ops (launchContents m c)) _).trans (keeps_arg4 (launchContents m c))),
       (h c main_arg5).trans ((congrFun (after_ops (launchContents m c)) _).trans (keeps_arg5 (launchContents m c)))⟩)
    (run_seq scopedRefs_eq scopedSems_eq defs main (fun _ => ops) main_eq (fun _ => ops_sub) m ρ)

end Cert.Gcn.RefSide

end
-- ==== Proof.lean ====
/-
  Two-layer graph convolution: a kernel whose two dense projections run as tiled matrix-product regions, against a
  reference that writes them as plain matrix products.

  Both programs compute `out = A (max (A (x · W1) + b1, 0) · W2) + b2` on the graph with one self loop per node,
  where `A h` gathers the rows of `h` at the edge sources, scales them by `deg[src]^(-1/2) · deg[dst]^(-1/2)` and
  sums them at the edge destinations. The programs differ only in the two products: the kernel computes each in 50
  blocks of 1000 rows, after rounding the operands to a narrower float format, and the reference in one piece. At
  the ideal values the rounding is the identity and every block of a product is the same sum of products as the
  corresponding rows of the whole product, so both result arrays are the one function `Cert.Gcn.gcn` of the
  arguments; no finiteness of the inputs is needed, since no sum is rearranged and no factor is moved across one.
  The idealization rewrote no operation, so nothing is owed for it.
-/
import proofs.«109055_j61186104099484_1_alg».proof.Defs
import proofs.«109055_j61186104099484_1_alg».proof.Proof.Gen.Kernel
import proofs.«109055_j61186104099484_1_alg».proof.Proof.Gen.Kernel.Skeleton
import proofs.«109055_j61186104099484_1_alg».proof.Proof.Gen.Kernel.Launch
import proofs.«109055_j61186104099484_1_alg».proof.Proof.Gen.Kernel.Points
import proofs.«109055_j61186104099484_1_alg».proof.Proof.Gen.Kernel.Frame
import proofs.«109055_j61186104099484_1_alg».proof.Proof.Gen.KernelIdeal
import proofs.«109055_j61186104099484_1_alg».proof.Proof.Gen.KernelIdeal.Skeleton
import proofs.«109055_j61186104099484_1_alg».proof.Proof.Gen.KernelIdeal.Launch
import proofs.«109055_j61186104099484_1_alg».proof.Proof.Gen.KernelIdeal.Points
import proofs.«109055_j61186104099484_1_alg».proof.Proof.Gen.KernelIdeal.Frame
import proofs.«109055_j61186104099484_1_alg».proof.Proof.Gen.ReferenceIdeal
import proofs.«109055_j61186104099484_1_alg».proof.Proof.Gen.Pre_finite_inputs
import proofs.«109055_j61186104099484_1_alg».proof.Proof.KernelResult
import proofs.«109055_j61186104099484_1_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.Gcn.RefSide.run m ρ)

/-- From memories that agree on the arguments, both idealized programs end with their result at `gcn` of the
    arguments. -/
theorem algebraic : Cert.algebraic_KernelIdeal_ReferenceIdeal := by
  intro m ρ m' ρ' _ hagree
  refine ⟨_, Cert.Gcn.KernelSide.run m ρ, ?_⟩
  refine (θ_run Cert.ReferenceIdeal.defs _ _).mono (fun _ h c => ⟨(h c).1.trans ?_, (h c).2⟩) (Cert.Gcn.RefSide.run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
